-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S128x128 : Shape := ⟨2, ![128, 128]⟩
abbrev S128 : Shape := ⟨1, ![128]⟩
abbrev S128x32 : Shape := ⟨2, ![128, 32]⟩
abbrev S32 : Shape := ⟨1, ![32]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S128x32 .f32) (main_arg5 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S50000x64 .f32) (main_arg1 : FVec F S50000x64 .f32) (main_arg2 : FVec F S128x128 .f32) (main_arg3 : FVec F S128 .f32) (main_arg4 : FVec F S128x32 .f32) (main_arg5 : FVec F S32 .f32) (main_arg6 : IVec S800000 32) (main_arg7 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x64 : Shape := ⟨2, ![50000, 64]⟩
abbrev S128x128 : Shape := ⟨2, ![128, 128]⟩
abbrev S128 : Shape := ⟨1, ![128]⟩
abbrev S128x32 : Shape := ⟨2, ![128, 32]⟩
abbrev S32 : Shape := ⟨1, ![32]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S50000x1 : Shape := ⟨2, ![50000, 1]⟩
abbrev S800000x128 : Shape := ⟨2, ![800000, 128]⟩
abbrev S5000x128 : Shape := ⟨2, ![5000, 128]⟩
abbrev S5000x1 : Shape := ⟨2, ![5000, 1]⟩
abbrev S1x128 : Shape := ⟨2, ![1, 128]⟩
abbrev S50000x32 : Shape := ⟨2, ![50000, 32]⟩
abbrev S5000x32 : Shape := ⟨2, ![5000, 32]⟩
abbrev S1x32 : Shape := ⟨2, ![1, 32]⟩

abbrev nBuf : Space → Nat
  | .hbm => 77
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S128x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x128, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S50000x1, .f32⟩
  | .hbm, ⟨76, _⟩ => ⟨S50000x32, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x32, .f32⟩
  | .local _ .vmem, ⟨13, _⟩ => ⟨S32, .f32⟩
  | .local _ .vmem, ⟨14, _⟩ => ⟨S5000x32, .f32⟩
  | .local _ .vmem, ⟨15, _⟩ => ⟨S5000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_cst_6 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_8 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_c_11 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  concatenates_S50000x64_S50000x64_S50000x128_d1 : Shape.Concatenates [S50000x64, S50000x64] S50000x128 1
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x32_S5000x32_1_0_0_1_n_n_wf : DotDims.WF S5000x128 S128x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x32.size a ≤ S128x32.size a
  hwx1_2 : ∀ i : grid1.Coords, EltTy.bits .f32 = 32 ∨ (Rect.block (s := S128x32) S128x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S50000x32.size a
  hwx1_4 : ∀ i : grid1.Coords, EltTy.bits .f32 = 32 ∨ (Rect.block (s := S50000x32) S5000x32.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf

abbrev win0_0 : Pipeline.Window sig grid0 :=
  Pipeline.Window.ofSpec (Memref.whole main_v32) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S128x128 : Shape := ⟨2, ![128, 128]⟩
abbrev S128 : Shape := ⟨1, ![128]⟩
abbrev S128x32 : Shape := ⟨2, ![128, 32]⟩
abbrev S32 : Shape := ⟨1, ![32]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S50000x1 : Shape := ⟨2, ![50000, 1]⟩
abbrev S800000x128 : Shape := ⟨2, ![800000, 128]⟩
abbrev S1x128 : Shape := ⟨2, ![1, 128]⟩
abbrev S50000x32 : Shape := ⟨2, ![50000, 32]⟩
abbrev S1x32 : Shape := ⟨2, ![1, 32]⟩

abbrev nBuf : Space → Nat
  | .hbm => 90
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S128x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x128, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S50000x1, .f32⟩
  | .hbm, ⟨84, _⟩ => ⟨S50000x128, .f32⟩
  | .hbm, ⟨85, _⟩ => ⟨S50000x128, .f32⟩
  | .hbm, ⟨86, _⟩ => ⟨S50000x32, .f32⟩
  | .hbm, ⟨87, _⟩ => ⟨S1x32, .f32⟩
  | .hbm, ⟨88, _⟩ => ⟨S50000x32, .f32⟩
  | .hbm, ⟨89, _⟩ => ⟨S50000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_cst_6 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_8 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call2_cst : Ref sig .tc := ⟨.hbm, 64, rfl⟩
abbrev main_call2_v0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_c_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_12 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  concatenates_S50000x64_S50000x64_S50000x128_d1 : Shape.Concatenates [S50000x64, S50000x64] S50000x128 1
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x32_S50000x32_1_0_0_1_n_n_wf : DotDims.WF S50000x128 S128x32 S50000x32 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf

class Facts : Prop extends Facts₀ where

variable [Facts]
-- ==== Proof.KernelRun.lean ====
/-
  The idealized kernel's run with its result named. Every weakly fair execution of the program from a memory with
  zero counters terminates without a fault, and in every final state the result array holds what the last
  segment boundary's contents give it (`W8`: the second region's output array after its ten write-backs), while the
  eight argument arrays hold what they were launched with. The run is the launch theorem over the program's eight
  segments (five stretches of host operations, the first region, one more stretch, the second region); the final
  thread state holds every unscoped buffer at the last boundary's contents, and the result and the arguments are
  read out of it.
-/
import proofs.«129936_j71811853189815_1_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result array at the last boundary's contents and the arguments as launched. -/
theorem run : θ_run defs (onTc (τ := τ) (main (F := F))) ⟨m, fun _ => 0, ρ⟩ (fun r => ∀ c : Dev nD,
      r.2.mem ((c.tc : Thread nD τ).loc main_v49) = W8 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v49 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.ResultRun

end
-- ==== Proof.HostStages.lean ====
/-
  The host side of the two-layer graph convolution, stage by stage, as whole-array functions of the arguments
  (any float instance). `degree` counts, per node, the edges whose index word names it (ones scatter-added at the
  index words); `norm` is the node's factor: the reciprocal square root of its degree clamped below at one, and
  zero for a node of degree zero. `aggregate` scales each node's feature row by its factor, takes per edge the
  row of the edge's source node (a negative source word counted from the end) and adds it into the row of the
  edge's destination node. `refLayer1` and `refLayer2` are the dense stages as the reference computes them:
  scale each aggregated row by the destination factor, multiply by the weights, add the bias (the first layer
  then clamps below at zero). `refOut` is the whole network: two rounds of aggregate-then-dense over the two
  feature halves set side by side.
-/
import proofs.«129936_j71811853189815_1_alg».proof.ReferenceIdeal
import proofs.«129936_j71811853189815_1_alg».proof.Proof.Gen.ReferenceIdeal

noncomputable section

namespace Cert.Stages

open Idealize.ShloMosaic Cert.ReferenceIdeal Cert.ReferenceIdeal.Facts₀

variable {F : FTy → Type} [FloatOps F]

/-- Per node, the number of edges whose index word names it. -/
def degree (idx : IVec S800000 32) : FVec F S50000 .f32 :=
  Host.scatterAdd scatter_S50000_S800000x1_S800000_n_0_0_1
    (broadcastInDim S50000 ![] bcast_S_S50000 (constant (F := F) S_ .f32 0x00000000#32))
    (broadcastInDim S800000x1 ![0] bcast_S800000_S800000x1_0 idx)
    (broadcastInDim S800000 ![] bcast_S_S800000 (constant (F := F) S_ .f32 0x3F800000#32))

/-- The node's factor: 1/sqrt(max(degree, 1)) where the degree is positive, zero elsewhere. -/
def norm (idx : IVec S800000 32) : FVec F S50000 .f32 :=
  select
    (cmpf .ogt (degree (F := F) idx) (broadcastInDim S50000 ![] bcast_S_S50000 (constant (F := F) S_ .f32 0x00000000#32)))
    (Host.rsqrt (maximumf (degree (F := F) idx) (broadcastInDim S50000 ![] bcast_S_S50000 (constant (F := F) S_ .f32 0x3F800000#32))))
    (broadcastInDim S50000 ![] bcast_S_S50000 (id (constant (F := F) S_ .f32 0x00000000#32)))

/-- A per-node factor spread along the 128 feature columns. -/
def spread (n : FVec F S50000 .f32) : FVec F S50000x128 .f32 :=
  broadcastInDim S50000x128 ![0, 1] bcast_S50000x1_S50000x128_0_1 (broadcastInDim S50000x1 ![0] bcast_S50000_S50000x1_0 n)

/-- The source words with a negative word counted from the end, as a column of row numbers. -/
def sourceRows (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- One round of message passing: scale by the source factor, gather per edge, add per destination. -/
def aggregate (X : FVec F S50000x128 .f32) (ns : FVec F S50000 .f32) (src dst : IVec S800000 32) : FVec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 dst)
    (Host.gather gather_S50000x128_S800000x1_S800000x128_1_0_n_n_0_1_1128 (mulf X (spread ns)) (sourceRows src))

/-- The reference's first dense stage: (agg ⊙ nd) · W + b, clamped below at zero. -/
def refLayer1 (agg : FVec F S50000x128 .f32) (nd : FVec F S50000 .f32) (W : FVec F S128x128 .f32) (b : FVec F S128 .f32) :
    FVec F S50000x128 .f32 :=
  maximumf
    (addf (Host.dotGeneral dot_S50000x128_S128x128_S50000x128_1_0_0_1_n_n none (mulf agg (spread nd)) W)
      (broadcastInDim S50000x128 ![0, 1] bcast_S1x128_S50000x128_0_1 (broadcastInDim S1x128 ![1] bcast_S128_S1x128_1 b)))
    (broadcastInDim S50000x128 ![] bcast_S_S50000x128 (constant (F := F) S_ .f32 0x00000000#32))

/-- The reference's second dense stage: (agg ⊙ nd) · W + b. -/
def refLayer2 (agg : FVec F S50000x128 .f32) (nd : FVec F S50000 .f32) (W : FVec F S128x32 .f32) (b : FVec F S32 .f32) :
    FVec F S50000x32 .f32 :=
  addf (Host.dotGeneral dot_S50000x128_S128x32_S50000x32_1_0_0_1_n_n none (mulf agg (spread nd)) W)
    (broadcastInDim S50000x32 ![0, 1] bcast_S1x32_S50000x32_0_1 (broadcastInDim S1x32 ![1] bcast_S32_S1x32_1 b))

/-- The two feature halves side by side. -/
def features (a0 a1 : FVec F S50000x64 .f32) : FVec F S50000x128 .f32 :=
  concatenate S50000x128 1 [⟨S50000x64, a0⟩, ⟨S50000x64, a1⟩] concatenates_S50000x64_S50000x64_S50000x128_d1

/-- The whole network as the reference computes it. -/
def refOut (a0 a1 : FVec F S50000x64 .f32) (W1 : FVec F S128x128 .f32) (b1 : FVec F S128 .f32)
    (W2 : FVec F S128x32 .f32) (b2 : FVec F S32 .f32) (src dst : IVec S800000 32) : FVec F S50000x32 .f32 :=
  refLayer2
    (aggregate (refLayer1 (aggregate (features a0 a1) (norm src) src dst) (norm dst) W1 b1) (norm src) src dst)
    (norm dst) W2 b2

end Cert.Stages

end
-- ==== Proof.HostValue.lean ====
/-
  What the idealized kernel's host operations leave in the buffers the two regions read, as functions of the
  launch contents. Before the first region: the source and destination factors (`norm` of the index arrays), the
  first round's aggregated features (`aggregate` of the two feature halves set side by side), and the destination
  factor re-laid as a column. Between the regions: the second round's aggregated features, a function of what the
  first region left in its output array and of buffers the first region does not touch. Weights, biases and
  index arrays are never written: they hold their launch contents at every segment boundary.
-/
import proofs.«129936_j71811853189815_1_alg».proof.Proof.Gen.KernelIdeal.Frame
import proofs.«129936_j71811853189815_1_alg».proof.Proof.HostStages
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The contents before the first region, opened to the five stretches of host operations over the launch memory,
    and every operation's result rewritten to its function of its operands. -/
macro "entry0_results" : tactic =>
  `(tactic| (simp only [hostOps0, hostOps0_1, hostOps0_2, hostOps0_3, hostOps0_4]; after_results_simp))

/-- A vector of per-node factors re-laid as a column. -/
abbrev column (n : FVec F S50000 .f32) : FVec F S50000x1 .f32 := shapeCast S50000x1 n Facts₀.shapeCasts_S50000_S50000x1

/-! ## Before the first region -/

set_option maxHeartbeats 4000000 in
/-- The source factor. -/
theorem W5_v12 (c : Dev nD) : W5 m ρ c (Proc.devRef .tc main_v12) = Cert.Stages.norm (F := F) (m ((c : Thread nD τ).loc main_arg6)) := by
  show StableHlo.after hostOps0_4 (StableHlo.after hostOps0_3 (StableHlo.after hostOps0_2 (StableHlo.after hostOps0_1 (StableHlo.after hostOps0 (W0 m ρ c))))) (Proc.devRef .tc main_v12) = _
  entry0_results
  rfl

set_option maxHeartbeats 4000000 in
/-- The destination factor. -/
theorem W5_v18 (c : Dev nD) : W5 m ρ c (Proc.devRef .tc main_v18) = Cert.Stages.norm (F := F) (m ((c : Thread nD τ).loc main_arg7)) := by
  show StableHlo.after hostOps0_4 (StableHlo.after hostOps0_3 (StableHlo.after hostOps0_2 (StableHlo.after hostOps0_1 (StableHlo.after hostOps0 (W0 m ρ c))))) (Proc.devRef .tc main_v18) = _
  entry0_results
  rfl

set_option maxHeartbeats 8000000 in
/-- The first round's aggregated features. -/
theorem W5_v32 (c : Dev nD) : W5 m ρ c (Proc.devRef .tc main_v32)
    = Cert.Stages.aggregate (F := F) (Cert.Stages.features (m ((c : Thread nD τ).loc main_arg0)) (m ((c : Thread nD τ).loc main_arg1)))
        (Cert.Stages.norm (m ((c : Thread nD τ).loc main_arg6))) (m ((c : Thread nD τ).loc main_arg6)) (m ((c : Thread nD τ).loc main_arg7)) := by
  show StableHlo.after hostOps0_4 (StableHlo.after hostOps0_3 (StableHlo.after hostOps0_2 (StableHlo.after hostOps0_1 (StableHlo.after hostOps0 (W0 m ρ c))))) (Proc.devRef .tc main_v32) = _
  entry0_results
  rfl

set_option maxHeartbeats 4000000 in
/-- The destination factor as a column. -/
theorem W5_v33 (c : Dev nD) : W5 m ρ c (Proc.devRef .tc main_v33) = column (Cert.Stages.norm (F := F) (m ((c : Thread nD τ).loc main_arg7))) := by
  show StableHlo.after hostOps0_4 (StableHlo.after hostOps0_3 (StableHlo.after hostOps0_2 (StableHlo.after hostOps0_1 (StableHlo.after hostOps0 (W0 m ρ c))))) (Proc.devRef .tc main_v33) = _
  entry0_results
  rfl

set_option maxHeartbeats 4000000 in
theorem W5_arg2 (c : Dev nD) : W5 m ρ c (Proc.devRef .tc main_arg2) = m ((c : Thread nD τ).loc main_arg2) := by
  show StableHlo.after hostOps0_4 (StableHlo.after hostOps0_3 (StableHlo.after hostOps0_2 (StableHlo.after hostOps0_1 (StableHlo.after hostOps0 (W0 m ρ c))))) (Proc.devRef .tc main_arg2) = _
  entry0_results

set_option maxHeartbeats 4000000 in
theorem W5_arg3 (c : Dev nD) : W5 m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  entry0_results

set_option maxHeartbeats 4000000 in
theorem W5_arg4 (c : Dev nD) : W5 m ρ c (Proc.devRef .tc main_arg4) = m ((c : Thread nD τ).loc main_arg4) := by
  show StableHlo.after hostOps0_4 (StableHlo.after hostOps0_3 (StableHlo.after hostOps0_2 (StableHlo.after hostOps0_1 (StableHlo.after hostOps0 (W0 m ρ c))))) (Proc.devRef .tc main_arg4) = _
  entry0_results

set_option maxHeartbeats 4000000 in
theorem W5_arg5 (c : Dev nD) : W5 m ρ c (Proc.devRef .tc main_arg5) = m ((c : Thread nD τ).loc main_arg5) := by
  show StableHlo.after hostOps0_4 (StableHlo.after hostOps0_3 (StableHlo.after hostOps0_2 (StableHlo.after hostOps0_1 (StableHlo.after hostOps0 (W0 m ρ c))))) (Proc.devRef .tc main_arg5) = _
  entry0_results

set_option maxHeartbeats 4000000 in
theorem W5_arg6 (c : Dev nD) : W5 m ρ c (Proc.devRef .tc main_arg6) = m ((c : Thread nD τ).loc main_arg6) := by
  show StableHlo.after hostOps0_4 (StableHlo.after hostOps0_3 (StableHlo.after hostOps0_2 (StableHlo.after hostOps0_1 (StableHlo.after hostOps0 (W0 m ρ c))))) (Proc.devRef .tc main_arg6) = _
  entry0_results

set_option maxHeartbeats 4000000 in
theorem W5_arg7 (c : Dev nD) : W5 m ρ c (Proc.devRef .tc main_arg7) = m ((c : Thread nD τ).loc main_arg7) := by
  show StableHlo.after hostOps0_4 (StableHlo.after hostOps0_3 (StableHlo.after hostOps0_2 (StableHlo.after hostOps0_1 (StableHlo.after hostOps0 (W0 m ρ c))))) (Proc.devRef .tc main_arg7) = _
  entry0_results

/-! ## Between the regions -/

set_option maxHeartbeats 8000000 in
/-- The second round's aggregated features, from the first region's output array. -/
theorem W7_v47 (c : Dev nD) : W7 m ρ c (Proc.devRef .tc main_v47)
    = Cert.Stages.aggregate (F := F) (W6 m ρ c (Proc.devRef .tc main_v34)) (W6 m ρ c (Proc.devRef .tc main_v12))
        (W6 m ρ c (Proc.devRef .tc main_arg6)) (W6 m ρ c (Proc.devRef .tc main_arg7)) := by
  show StableHlo.after hostOps1 (W6 m ρ c) (Proc.devRef .tc main_v47) = _
  simp only [hostOps1]
  after_results_simp
  rfl

set_option maxHeartbeats 4000000 in
/-- The destination factor as a column, again. -/
theorem W7_v48 (c : Dev nD) : W7 m ρ c (Proc.devRef .tc main_v48) = column (W6 m ρ c (Proc.devRef .tc main_v18)) := by
  show StableHlo.after hostOps1 (W6 m ρ c) (Proc.devRef .tc main_v48) = _
  simp only [hostOps1]
  after_results_simp
  rfl

set_option maxHeartbeats 4000000 in
theorem W7_arg4 (c : Dev nD) : W7 m ρ c (Proc.devRef .tc main_arg4) = W6 m ρ c (Proc.devRef .tc main_arg4) := by
  show StableHlo.after hostOps1 (W6 m ρ c) (Proc.devRef .tc main_arg4) = _
  simp only [hostOps1]
  after_results_simp

set_option maxHeartbeats 4000000 in
theorem W7_arg5 (c : Dev nD) : W7 m ρ c (Proc.devRef .tc main_arg5) = W6 m ρ c (Proc.devRef .tc main_arg5) := by
  show StableHlo.after hostOps1 (W6 m ρ c) (Proc.devRef .tc main_arg5) = _
  simp only [hostOps1]
  after_results_simp

/-- A buffer the first region does not stage holds at its exit what it held at its entry. -/
theorem W6_keep (c : Dev nD) (b : Ref sig .tc) (hb : ∀ w, Pipeline.arrRef spec0 w ≠ b) :
    W6 m ρ c (Proc.devRef .tc b) = W5 m ρ c (Proc.devRef .tc b) := W6_of_ne m ρ c b hb

theorem W6_v12 (c : Dev nD) : W6 m ρ c (Proc.devRef .tc main_v12) = Cert.Stages.norm (F := F) (m ((c : Thread nD τ).loc main_arg6)) :=
  (W6_of_ne m ρ c main_v12 (by decide)).trans (W5_v12 m ρ c)
theorem W6_v18 (c : Dev nD) : W6 m ρ c (Proc.devRef .tc main_v18) = Cert.Stages.norm (F := F) (m ((c : Thread nD τ).loc main_arg7)) :=
  (W6_of_ne m ρ c main_v18 (by decide)).trans (W5_v18 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_arg7 (c : Dev nD) : W6 m ρ c (Proc.devRef .tc main_arg7) = m ((c : Thread nD τ).loc main_arg7) :=
  (W6_of_ne m ρ c main_arg7 (by decide)).trans (W5_arg7 m ρ c)

end Cert.KernelIdeal.HostValue

end
-- ==== Proof.DenseSpec.lean ====
/-
  One dense layer of the graph network, entry by entry, on the extended reals. The aggregated features `A`
  (`M` rows of 128 columns) have each row `p` scaled by its node's factor `n p` (a column), are multiplied by
  the weights `W` (128 × `C`) and shifted by the bias `b`:
      entry (p, q) = Σ_k (A (p, k) · n p) · W (k, q) + b q.
  The first layer then clamps the entry below at zero. An entry depends on row `p` of `A` and of `n` only, so
  the layer of a block of rows is that block of the layer of the whole array (`entry_congr`).
-/
import Idealize.ShloMosaic.PureOps.Ideal.Laws
import Idealize.ShloMosaic.Lib.ValueIdx

noncomputable section

open scoped BigOperators

namespace Cert.Dense

open Idealize.ShloMosaic Idealize.ShloMosaic.ValueIdx

variable {M C : ℕ}

/-- Entry `(p, q)` of `(A ⊙ n) · W + b`. -/
def entry (A : FVec Ideal ⟨2, ![M, 128]⟩ .f32) (n : FVec Ideal ⟨2, ![M, 1]⟩ .f32)
    (W : FVec Ideal ⟨2, ![128, C]⟩ .f32) (b : FVec Ideal ⟨1, ![C]⟩ .f32) (p : Fin M) (q : Fin C) : EReal :=
  (∑ k : Fin 128, (A (ix2 p k) * n (ix2 p (0 : Fin 1))) * W (ix2 k q)) + b (ix1 q)

/-- The layer without a clamp: the array of all entries. -/
def affine (A : FVec Ideal ⟨2, ![M, 128]⟩ .f32) (n : FVec Ideal ⟨2, ![M, 1]⟩ .f32)
    (W : FVec Ideal ⟨2, ![128, C]⟩ .f32) (b : FVec Ideal ⟨1, ![C]⟩ .f32) : FVec Ideal ⟨2, ![M, C]⟩ .f32 :=
  fun i => entry A n W b (i 0) (i 1)

/-- The layer clamped below at zero (the zero word of the format). -/
def affineRelu (A : FVec Ideal ⟨2, ![M, 128]⟩ .f32) (n : FVec Ideal ⟨2, ![M, 1]⟩ .f32)
    (W : FVec Ideal ⟨2, ![128, C]⟩ .f32) (b : FVec Ideal ⟨1, ![C]⟩ .f32) : FVec Ideal ⟨2, ![M, C]⟩ .f32 :=
  fun i => max (entry A n W b (i 0) (i 1)) (Ideal.ofBits .f32 0x00000000#32)

theorem affine_apply (A : FVec Ideal ⟨2, ![M, 128]⟩ .f32) (n : FVec Ideal ⟨2, ![M, 1]⟩ .f32)
    (W : FVec Ideal ⟨2, ![128, C]⟩ .f32) (b : FVec Ideal ⟨1, ![C]⟩ .f32) (p : Fin M) (q : Fin C) :
    affine A n W b (ix2 p q) = entry A n W b p q := rfl

theorem affineRelu_apply (A : FVec Ideal ⟨2, ![M, 128]⟩ .f32) (n : FVec Ideal ⟨2, ![M, 1]⟩ .f32)
    (W : FVec Ideal ⟨2, ![128, C]⟩ .f32) (b : FVec Ideal ⟨1, ![C]⟩ .f32) (p : Fin M) (q : Fin C) :
    affineRelu A n W b (ix2 p q) = max (entry A n W b p q) (Ideal.ofBits .f32 0x00000000#32) := rfl

/-- An entry reads row `p` of the features and of the factors only: two pairs of arrays, of any heights, that
    agree on a row give the same entry there. -/
theorem entry_congr {M' : ℕ} (A : FVec Ideal ⟨2, ![M, 128]⟩ .f32) (n : FVec Ideal ⟨2, ![M, 1]⟩ .f32)
    (A' : FVec Ideal ⟨2, ![M', 128]⟩ .f32) (n' : FVec Ideal ⟨2, ![M', 1]⟩ .f32)
    (W : FVec Ideal ⟨2, ![128, C]⟩ .f32) (b : FVec Ideal ⟨1, ![C]⟩ .f32) (p : Fin M) (p' : Fin M') (q : Fin C)
    (hA : ∀ k : Fin 128, A (ix2 p k) = A' (ix2 p' k)) (hn : n (ix2 p (0 : Fin 1)) = n' (ix2 p' (0 : Fin 1))) :
    entry A n W b p q = entry A' n' W b p' q := by
  unfold entry
  rw [hn]
  exact congrArg (· + b (ix1 q)) (Finset.sum_congr rfl fun k _ => by rw [hA k])

end Cert.Dense

end
-- ==== Proof.NetworkSpec.lean ====
/-
  The two-layer network as ONE function of the arguments, on the extended reals: two rounds of message passing
  (`aggregate`), each followed by a dense stage stated entry by entry (`Cert.Dense.affineRelu`, `Cert.Dense.affine`:
  the aggregated row scaled by the destination factor, times the weights, plus the bias; the first stage clamped
  below at zero). Both programs compute this function: the reference by host operations, the kernel by two grids of
  row blocks.
-/
import proofs.«129936_j71811853189815_1_alg».proof.Proof.HostStages
import proofs.«129936_j71811853189815_1_alg».proof.Proof.DenseSpec

noncomputable section

namespace Cert.Stages

open Idealize.ShloMosaic Cert.ReferenceIdeal Cert.ReferenceIdeal.Facts₀

/-- A vector of per-node factors set as a column. -/
abbrev col (n : FVec Ideal S50000 .f32) : FVec Ideal S50000x1 .f32 :=
  broadcastInDim S50000x1 ![0] bcast_S50000_S50000x1_0 n

/-- The whole network. -/
def netOut (a0 a1 : FVec Ideal S50000x64 .f32) (W1 : FVec Ideal S128x128 .f32) (b1 : FVec Ideal S128 .f32)
    (W2 : FVec Ideal S128x32 .f32) (b2 : FVec Ideal S32 .f32) (src dst : IVec S800000 32) : FVec Ideal S50000x32 .f32 :=
  Cert.Dense.affine
    (aggregate
      (Cert.Dense.affineRelu (aggregate (features a0 a1) (norm src) src dst) (col (norm dst)) W1 b1)
      (norm src) src dst)
    (col (norm dst)) W2 b2

end Cert.Stages

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.KernelPayload.lean ====
/-
  The value each kernel body stores, read at an entry. The body scales row p of its block of aggregated
  features by the row's factor, multiplies by the weights into a zero accumulator, adds the bias along the
  rows, and (first layer) clamps below at zero. On the extended reals the narrowing of the two factors of the
  product is the identity and the product into the zero accumulator is the plain sum over the shared axis, so
  the stored value at (p, q) is the dense layer's entry (p, q) of the block's own arrays. Last, an entry of a
  block of rows is the entry of the whole arrays at the row the block's row sits at.
-/
import proofs.«129936_j71811853189815_1_alg».proof.Proof.Gen.KernelIdeal.Skeleton
import proofs.«129936_j71811853189815_1_alg».proof.Proof.DenseSpec
import proofs.«129936_j71811853189815_1_alg».proof.Proof.LibPlainDot
import proofs.«129936_j71811853189815_1_alg».proof.Proof.LibKeepdims
import Idealize.ShloMosaic.Lib.ValueLayout

noncomputable section

open scoped BigOperators

namespace Cert.KernelIdeal.Blocks

open Idealize.ShloMosaic Idealize.ShloMosaic.ValueIdx
open Cert.KernelIdeal Cert.KernelIdeal.Gen

/-- The scaled features times the weights, into the zero accumulator, at (p, q): the sum over the shared axis
    of (feature · factor) · weight. -/
theorem scaled_product_apply {C : ℕ} (D : DotDims S5000x128 ⟨2, ![128, C]⟩ ⟨2, ![5000, C]⟩)
    (hD : D = DotDims.plain 5000 128 C) (h0 : S5000x128.ShapeCasts S5000x128) (h1 : S5000x1.ShapeCasts S5000x1)
    (hc : S5000x1.Broadcasts S5000x128) (hlt : FTy.bits .bf16 < FTy.bits .f32)
    (x0 : Vec Ideal S5000x128 .f32) (x1 : Vec Ideal S5000x1 .f32) (x2 : Vec Ideal ⟨2, ![128, C]⟩ .f32)
    (p : Fin 5000) (q : Fin C) :
    matmul D none
        (truncf .bf16 (mulf (shapeCast S5000x128 x0 h0) (broadcastTo S5000x128 (shapeCast S5000x1 x1 h1) hc)) hlt)
        (truncf .bf16 x2 hlt) (constant (F := Ideal) ⟨2, ![5000, C]⟩ .f32 0x00000000#32) (ix2 p q)
      = ∑ k : Fin 128, (x0 (ix2 p k) * x1 (ix2 p (0 : Fin 1))) * x2 (ix2 k q) := by
  subst hD
  refine (Cert.Lib.PlainDot.matmul_plain_zero_apply (M := 5000) (K := 128) (N := C) none _ _ p q).trans ?_
  refine Finset.sum_congr rfl fun k _ => ?_
  show (shapeCast S5000x128 x0 h0 (ix2 p k) * broadcastTo S5000x128 (shapeCast S5000x1 x1 h1) hc (ix2 p k))
      * x2 (ix2 k q) = _
  rw [shapeCast_self, shapeCast_self, Cert.Lib.Keepdims.broadcastTo_a1_ab_apply]

/-- The bias laid along every row, at (p, q), is the bias at q. -/
theorem bias_rows_apply {C : ℕ} (x3 : Vec Ideal ⟨1, ![C]⟩ .f32) (h : (⟨1, ![C]⟩ : Shape).ShapeCasts ⟨2, ![1, C]⟩)
    (hb : (⟨2, ![1, C]⟩ : Shape).Broadcasts ⟨2, ![5000, C]⟩) (p : Fin 5000) (q : Fin C) :
    broadcastTo ⟨2, ![5000, C]⟩ (shapeCast ⟨2, ![1, C]⟩ x3 h) hb (ix2 p q) = x3 (ix1 q) :=
  (broadcastTo_1b_ab_apply _ hb p q).trans (shapeCast_a_1a_apply x3 h 0 q)

/-- The first layer's stored value at (p, q): the entry clamped below at zero. -/
theorem pay0_apply (x0 : Vec Ideal S5000x128 .f32) (x1 : Vec Ideal S5000x1 .f32) (x2 : Vec Ideal S128x128 .f32)
    (x3 : Vec Ideal S128 .f32) (p : Fin 5000) (q : Fin 128) :
    k0_pay1 x0 x1 x2 x3 (ix2 p q)
      = max (Cert.Dense.entry x0 x1 x2 x3 p q) (Ideal.ofBits .f32 0x00000000#32) := by
  unfold k0_pay1 Cert.Dense.entry
  refine congrArg₂ max (congrArg₂ (· + ·) ?_ ?_) rfl
  · exact scaled_product_apply _ rfl _ _ _ _ x0 x1 x2 p q
  · exact bias_rows_apply x3 _ _ p q

/-- The second layer's stored value at (p, q): the entry. -/
theorem pay1_apply (x0 : Vec Ideal S5000x128 .f32) (x1 : Vec Ideal S5000x1 .f32) (x2 : Vec Ideal S128x32 .f32)
    (x3 : Vec Ideal S32 .f32) (p : Fin 5000) (q : Fin 32) :
    k1_pay1 x0 x1 x2 x3 (ix2 p q) = Cert.Dense.entry x0 x1 x2 x3 p q := by
  unfold k1_pay1 Cert.Dense.entry
  refine congrArg₂ (· + ·) ?_ ?_
  · exact scaled_product_apply _ rfl _ _ _ _ x0 x1 x2 p q
  · exact bias_rows_apply x3 _ _ p q

/-- The zero offsets of a whole-buffer access, of rank two and of rank one, as constant functions. -/
theorem offsets2_zero : (![0, 0] : Fin 2 → Nat) = fun _ => 0 := funext fun a => by fin_cases a <;> rfl

theorem offsets1_zero : (![0] : Fin 1 → Nat) = fun _ => 0 := funext fun a => by fin_cases a; rfl

/-- An entry of the layer of a block of rows is the entry of the layer of the whole arrays at the row the block's
    row sits at, when the block's features and factors are the whole arrays' there and the weights and bias are
    the whole arrays'. -/
theorem entry_of_block {C : ℕ} (A : FVec Ideal ⟨2, ![50000, 128]⟩ .f32) (n : FVec Ideal ⟨2, ![50000, 1]⟩ .f32)
    (A' : FVec Ideal ⟨2, ![5000, 128]⟩ .f32) (n' : FVec Ideal ⟨2, ![5000, 1]⟩ .f32)
    (W W' : FVec Ideal ⟨2, ![128, C]⟩ .f32) (b b' : FVec Ideal ⟨1, ![C]⟩ .f32)
    (p : Fin 5000) (q : Fin C) (P : Fin 50000) (Q : Fin C) (hQ : Q = q) (hW : W' = W) (hb : b' = b)
    (hA : ∀ k : Fin 128, A' (ix2 p k) = A (ix2 P k)) (hn : n' (ix2 p (0 : Fin 1)) = n (ix2 P (0 : Fin 1))) :
    Cert.Dense.entry A' n' W' b' p q = Cert.Dense.entry A n W b P Q := by
  subst hQ hW hb
  exact Cert.Dense.entry_congr A' n' A n W' b' p P Q hA hn

end Cert.KernelIdeal.Blocks

end
-- ==== Proof.KernelBlocks0.lean ====
/-
  The first layer's kernel read as one array. The grid has ten points; point t stages rows 5000 t … 5000 t + 4999
  of the aggregated features and of the node factors, the whole weight matrix and the whole bias, and writes the
  body's stored value back to the same rows of the result. An entry of the dense layer reads one row of the
  features and of the factors, so what point t writes is rows 5000 t … of the layer of the whole arrays; row r
  lies in the block of point r / 5000, so the ten blocks cover the result.
-/
import proofs.«129936_j71811853189815_1_alg».proof.Proof.Gen.KernelIdeal.Frame
import proofs.«129936_j71811853189815_1_alg».proof.Proof.KernelPayload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The printed index maps over the grid: the row blocks of the features, the factors and the result are block t
    at point t; the weights and the bias are block 0 on every axis. -/
theorem index_maps0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- What point t writes back is block t of the clamped layer of the arrays as the region finds them. -/
theorem flushed0_eq (c : Dev nD) (t : Fin cfg0.N) :
    (dat0 (F := Ideal) V c).flushed 4 t = ((cfg0.win 4).blk t).view.read (Elt Ideal)
      (Cert.Dense.affineRelu (V c main_v32) (V c main_v33) (V c main_arg2) (V c main_arg3)) := by
  show (cfg0.win 4).cut (grid0.coords t) ((dat0 V c).after 4 t) = _
  rw [after0_4]
  unfold out0_4
  rw [View.canon_unit_zero offsets2_zero]
  simp only [View.ld_unit_zero (S := S5000x128) offsets2_zero, View.ld_unit_zero (S := S5000x1) offsets2_zero,
    View.ld_unit_zero (S := S128x128) offsets2_zero, View.ld_unit_zero (S := S128) offsets1_zero]
  obtain ⟨e00, e01, e10, e11, e20, e21, e30, e40, e41⟩ := index_maps0 t
  funext y
  have h0 : (y 0).val < 5000 := (y 0).isLt
  have h1 : (y 1).val < 128 := (y 1).isLt
  have hy : (cfg0.win 4).xinj (grid0.coords t) y = ix2 (⟨(y 0).val, h0⟩ : Fin 5000) (⟨(y 1).val, h1⟩ : Fin 128) := by
    funext a
    match a with
    | ⟨0, _⟩ => rfl
    | ⟨1, _⟩ => rfl
  refine (congrArg (k0_pay1 (iblk0 V c 0 t) (iblk0 V c 1 t) (iblk0 V c 2 t) (iblk0 V c 3 t)) hy).trans ?_
  refine (pay0_apply _ _ _ _ _ _).trans ?_
  show max (Cert.Dense.entry (iblk0 V c 0 t) (iblk0 V c 1 t) (iblk0 V c 2 t) (iblk0 V c 3 t)
        (⟨(y 0).val, h0⟩ : Fin 5000) (⟨(y 1).val, h1⟩ : Fin 128)) _
      = max (Cert.Dense.entry (V c main_v32) (V c main_v33) (V c main_arg2) (V c main_arg3)
        (((cfg0.win 4).blk t).view.emb y 0) (((cfg0.win 4).blk t).view.emb y 1)) _
  refine congrArg (max · _) (entry_of_block _ _ _ _ _ _ _ _ _ _ _ _ ?_ ?_ ?_ ?_ ?_)
  · exact Fin.ext (by
      show win0_4.index t (1 : Fin 2) * 128 + 1 * (y 1).val = (y 1).val
      omega)
  · funext j
    show (V c main_arg2 : S128x128.Idx → EReal) (((cfg0.win 2).blk t).view.emb j) = V c main_arg2 j
    refine congrArg (V c main_arg2 : S128x128.Idx → EReal) (funext fun a => Fin.ext ?_)
    match a with
    | ⟨0, _⟩ => show win0_2.index t (0 : Fin 2) * 128 + 1 * (j 0).val = (j 0).val; omega
    | ⟨1, _⟩ => show win0_2.index t (1 : Fin 2) * 128 + 1 * (j 1).val = (j 1).val; omega
  · funext j
    show (V c main_arg3 : S128.Idx → EReal) (((cfg0.win 3).blk t).view.emb j) = V c main_arg3 j
    refine congrArg (V c main_arg3 : S128.Idx → EReal) (funext fun a => Fin.ext ?_)
    match a with
    | ⟨0, _⟩ => show win0_3.index t (0 : Fin 1) * 128 + 1 * (j 0).val = (j 0).val; omega
  · intro k
    show (V c main_v32 : S50000x128.Idx → EReal) (((cfg0.win 0).blk t).view.emb (ix2 (⟨(y 0).val, h0⟩ : Fin 5000) k))
      = V c main_v32 (ix2 (((cfg0.win 4).blk t).view.emb y 0) k)
    refine congrArg (V c main_v32 : S50000x128.Idx → EReal) (funext fun a => Fin.ext ?_)
    match a with
    | ⟨0, _⟩ =>
      show win0_0.index t (0 : Fin 2) * 5000 + 1 * (y 0).val = win0_4.index t (0 : Fin 2) * 5000 + 1 * (y 0).val
      omega
    | ⟨1, _⟩ => show win0_0.index t (1 : Fin 2) * 128 + 1 * k.val = k.val; omega
  · show (V c main_v33 : S50000x1.Idx → EReal) (((cfg0.win 1).blk t).view.emb (ix2 (⟨(y 0).val, h0⟩ : Fin 5000) (0 : Fin 1)))
      = V c main_v33 (ix2 (((cfg0.win 4).blk t).view.emb y 0) (0 : Fin 1))
    refine congrArg (V c main_v33 : S50000x1.Idx → EReal) (funext fun a => Fin.ext ?_)
    match a with
    | ⟨0, _⟩ =>
      show win0_1.index t (0 : Fin 2) * 5000 + 1 * (y 0).val = win0_4.index t (0 : Fin 2) * 5000 + 1 * (y 0).val
      omega
    | ⟨1, _⟩ => show win0_1.index t (1 : Fin 2) * 1 + 1 * 0 = 0; omega

/-- An index of the result is in point t's block iff each coordinate is in the block's range on its axis. -/
theorem mem_blk0 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v34).slice (win0_4.rect t)).set ↔ _
  rw [View.set_slice_whole, Rect.mem_set_unit]
  exact Iff.rfl

/-- Row r of the result lies in the block of point r / 5000, which writes back. -/
theorem cover0 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := by decide
  have ht : (i 0).val / 5000 < cfg0.N := by rw [hN]; omega
  obtain ⟨e00, e01, e10, e11, e20, e21, e30, e40, e41⟩ := index_maps0 ⟨(i 0).val / 5000, ht⟩
  have e40' : win0_4.index ⟨(i 0).val / 5000, ht⟩ (0 : Fin 2) = (i 0).val / 5000 := e40
  refine ⟨⟨(i 0).val / 5000, ht⟩, flush0_4 _, ?_⟩
  rw [mem_blk0]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    omega
  | ⟨1, _⟩ =>
    show win0_4.index ⟨(i 0).val / 5000, ht⟩ (1 : Fin 2) * 128 ≤ (i 1).val
      ∧ (i 1).val < win0_4.index ⟨(i 0).val / 5000, ht⟩ (1 : Fin 2) * 128 + 128
    omega

/-- The result array after the region: the clamped dense layer of the arrays as the region finds them. -/
theorem final0 (c : Dev nD) : (dat0 (F := Ideal) V c).arrAt 4 cfg0.N
    = Cert.Dense.affineRelu (V c main_v32) (V c main_v33) (V c main_arg2) (V c main_arg3) :=
  (dat0 (F := Ideal) V c).arrAt_eq_of_cover 4 _ (fun t _ => flushed0_eq V c t) cover0

end Cert.KernelIdeal.Blocks

end
-- ==== Proof.KernelBlocks1.lean ====
/-
  The second layer's kernel read as one array: the first layer's argument with 32 output columns and no clamp.
  Point t of the ten stages rows 5000 t … 5000 t + 4999 of the aggregated features and of the node factors, the
  whole weight matrix and the whole bias, and writes the body's stored value back to the same rows of the result;
  that value is rows 5000 t … of the dense layer of the whole arrays, and row r lies in the block of point r / 5000.
-/
import proofs.«129936_j71811853189815_1_alg».proof.Proof.Gen.KernelIdeal.Frame
import proofs.«129936_j71811853189815_1_alg».proof.Proof.KernelPayload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The printed index maps over the grid: the row blocks of the features, the factors and the result are block t
    at point t; the weights and the bias are block 0 on every axis. -/
theorem index_maps1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What point t writes back is block t of the dense layer of the arrays as the region finds them. -/
theorem flushed1_eq (c : Dev nD) (t : Fin cfg1.N) :
    (dat1 (F := Ideal) V c).flushed 4 t = ((cfg1.win 4).blk t).view.read (Elt Ideal)
      (Cert.Dense.affine (V c main_v47) (V c main_v48) (V c main_arg4) (V c main_arg5)) := by
  show (cfg1.win 4).cut (grid1.coords t) ((dat1 V c).after 4 t) = _
  rw [after1_4]
  unfold out1_4
  rw [View.canon_unit_zero offsets2_zero]
  simp only [View.ld_unit_zero (S := S5000x128) offsets2_zero, View.ld_unit_zero (S := S5000x1) offsets2_zero,
    View.ld_unit_zero (S := S128x32) offsets2_zero, View.ld_unit_zero (S := S32) offsets1_zero]
  obtain ⟨e00, e01, e10, e11, e20, e21, e30, e40, e41⟩ := index_maps1 t
  funext y
  have h0 : (y 0).val < 5000 := (y 0).isLt
  have h1 : (y 1).val < 32 := (y 1).isLt
  have hy : (cfg1.win 4).xinj (grid1.coords t) y = ix2 (⟨(y 0).val, h0⟩ : Fin 5000) (⟨(y 1).val, h1⟩ : Fin 32) := by
    funext a
    match a with
    | ⟨0, _⟩ => rfl
    | ⟨1, _⟩ => rfl
  refine (congrArg (k1_pay1 (iblk1 V c 0 t) (iblk1 V c 1 t) (iblk1 V c 2 t) (iblk1 V c 3 t)) hy).trans ?_
  refine (pay1_apply _ _ _ _ _ _).trans ?_
  show Cert.Dense.entry (iblk1 V c 0 t) (iblk1 V c 1 t) (iblk1 V c 2 t) (iblk1 V c 3 t)
        (⟨(y 0).val, h0⟩ : Fin 5000) (⟨(y 1).val, h1⟩ : Fin 32)
      = Cert.Dense.entry (V c main_v47) (V c main_v48) (V c main_arg4) (V c main_arg5)
        (((cfg1.win 4).blk t).view.emb y 0) (((cfg1.win 4).blk t).view.emb y 1)
  refine entry_of_block _ _ _ _ _ _ _ _ _ _ _ _ ?_ ?_ ?_ ?_ ?_
  · exact Fin.ext (by
      show win1_4.index t (1 : Fin 2) * 32 + 1 * (y 1).val = (y 1).val
      omega)
  · funext j
    show (V c main_arg4 : S128x32.Idx → EReal) (((cfg1.win 2).blk t).view.emb j) = V c main_arg4 j
    refine congrArg (V c main_arg4 : S128x32.Idx → EReal) (funext fun a => Fin.ext ?_)
    match a with
    | ⟨0, _⟩ => show win1_2.index t (0 : Fin 2) * 128 + 1 * (j 0).val = (j 0).val; omega
    | ⟨1, _⟩ => show win1_2.index t (1 : Fin 2) * 32 + 1 * (j 1).val = (j 1).val; omega
  · funext j
    show (V c main_arg5 : S32.Idx → EReal) (((cfg1.win 3).blk t).view.emb j) = V c main_arg5 j
    refine congrArg (V c main_arg5 : S32.Idx → EReal) (funext fun a => Fin.ext ?_)
    match a with
    | ⟨0, _⟩ => show win1_3.index t (0 : Fin 1) * 32 + 1 * (j 0).val = (j 0).val; omega
  · intro k
    show (V c main_v47 : S50000x128.Idx → EReal) (((cfg1.win 0).blk t).view.emb (ix2 (⟨(y 0).val, h0⟩ : Fin 5000) k))
      = V c main_v47 (ix2 (((cfg1.win 4).blk t).view.emb y 0) k)
    refine congrArg (V c main_v47 : S50000x128.Idx → EReal) (funext fun a => Fin.ext ?_)
    match a with
    | ⟨0, _⟩ =>
      show win1_0.index t (0 : Fin 2) * 5000 + 1 * (y 0).val = win1_4.index t (0 : Fin 2) * 5000 + 1 * (y 0).val
      omega
    | ⟨1, _⟩ => show win1_0.index t (1 : Fin 2) * 128 + 1 * k.val = k.val; omega
  · show (V c main_v48 : S50000x1.Idx → EReal) (((cfg1.win 1).blk t).view.emb (ix2 (⟨(y 0).val, h0⟩ : Fin 5000) (0 : Fin 1)))
      = V c main_v48 (ix2 (((cfg1.win 4).blk t).view.emb y 0) (0 : Fin 1))
    refine congrArg (V c main_v48 : S50000x1.Idx → EReal) (funext fun a => Fin.ext ?_)
    match a with
    | ⟨0, _⟩ =>
      show win1_1.index t (0 : Fin 2) * 5000 + 1 * (y 0).val = win1_4.index t (0 : Fin 2) * 5000 + 1 * (y 0).val
      omega
    | ⟨1, _⟩ => show win1_1.index t (1 : Fin 2) * 1 + 1 * 0 = 0; omega

/-- An index of the result is in point t's block iff each coordinate is in the block's range on its axis. -/
theorem mem_blk1 (t : Fin cfg1.N) (i : S50000x32.Idx) :
    i ∈ ((cfg1.win 4).blk t).view.set ↔ ∀ a : Fin 2, win1_4.index t a * S5000x32.size a ≤ (i a).val
      ∧ (i a).val < win1_4.index t a * S5000x32.size a + S5000x32.size a := by
  show i ∈ ((View.whole main_v49).slice (win1_4.rect t)).set ↔ _
  rw [View.set_slice_whole, Rect.mem_set_unit]
  exact Iff.rfl

/-- Row r of the result lies in the block of point r / 5000, which writes back. -/
theorem cover1 (i : S50000x32.Idx) :
    ∃ t : Fin cfg1.N, (cfg1.win 4).flush t = true ∧ i ∈ ((cfg1.win 4).blk t).view.set := by
  have hi0 : (i 0).val < 50000 := (i 0).isLt
  have hi1 : (i 1).val < 32 := (i 1).isLt
  have hN : cfg1.N = 10 := by decide
  have ht : (i 0).val / 5000 < cfg1.N := by rw [hN]; omega
  obtain ⟨e00, e01, e10, e11, e20, e21, e30, e40, e41⟩ := index_maps1 ⟨(i 0).val / 5000, ht⟩
  have e40' : win1_4.index ⟨(i 0).val / 5000, ht⟩ (0 : Fin 2) = (i 0).val / 5000 := e40
  refine ⟨⟨(i 0).val / 5000, ht⟩, flush1_4 _, ?_⟩
  rw [mem_blk1]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    omega
  | ⟨1, _⟩ =>
    show win1_4.index ⟨(i 0).val / 5000, ht⟩ (1 : Fin 2) * 32 ≤ (i 1).val
      ∧ (i 1).val < win1_4.index ⟨(i 0).val / 5000, ht⟩ (1 : Fin 2) * 32 + 32
    omega

/-- The result array after the region: the dense layer of the arrays as the region finds them. -/
theorem final1 (c : Dev nD) : (dat1 (F := Ideal) V c).arrAt 4 cfg1.N
    = Cert.Dense.affine (V c main_v47) (V c main_v48) (V c main_arg4) (V c main_arg5) :=
  (dat1 (F := Ideal) V c).arrAt_eq_of_cover 4 _ (fun t _ => flushed1_eq V c t) cover1

end Cert.KernelIdeal.Blocks

end
-- ==== Proof.LibBroadcastInDim.lean ====
/-
  A `broadcast_in_dim` of small shapes read at coordinates: a scalar spread over any shape; a vector [a] set as the
  column [a, 1]; a column [a, 1] spread over b lanes to [a, b]; a vector [b] set as the row [1, b]; a row [1, b]
  spread over a rows to [a, b]. Each is the library's general lemma (the result at j is the operand at j's
  coordinates on the axes the dimension map names, 0 on the operand's unit axes) with the per-axis arithmetic
  discharged for these shapes.
-/
import Idealize.ShloMosaic.Lib.Pipeline.Value
import Idealize.ShloMosaic.Lib.ValueIdx

namespace Cert.Lib.BroadcastInDim

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector [a] set as the column [a, 1] reads, at (r, u), the vector at r. -/
theorem vec_col_apply {a : ℕ} (h : (⟨1, ![a]⟩ : Shape).BroadcastsInDim ⟨2, ![a, 1]⟩ (![0] : Fin 1 → Fin 2))
    (x : (⟨1, ![a]⟩ : Shape).Idx → α) (r : Fin a) (u : Fin 1) :
    broadcastInDim ⟨2, ![a, 1]⟩ (![0] : Fin 1 → Fin 2) h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b lanes reads, at (r, q), the column at r. -/
theorem col_lanes_apply {a b : ℕ} (h : (⟨2, ![a, 1]⟩ : Shape).BroadcastsInDim ⟨2, ![a, b]⟩ (![0, 1] : Fin 2 → Fin 2))
    (x : (⟨2, ![a, 1]⟩ : Shape).Idx → α) (r : Fin a) (q : Fin b) :
    broadcastInDim ⟨2, ![a, b]⟩ (![0, 1] : Fin 2 → Fin 2) h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else q.val
    rw [if_pos rfl]

/-- A vector [b] set as the row [1, b] reads, at (u, q), the vector at q. -/
theorem vec_row_apply {b : ℕ} (h : (⟨1, ![b]⟩ : Shape).BroadcastsInDim ⟨2, ![1, b]⟩ (![1] : Fin 1 → Fin 2))
    (x : (⟨1, ![b]⟩ : Shape).Idx → α) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows reads, at (r, q), the row at q. -/
theorem row_rows_apply {a b : ℕ} (h : (⟨2, ![1, b]⟩ : Shape).BroadcastsInDim ⟨2, ![a, b]⟩ (![0, 1] : Fin 2 → Fin 2))
    (x : (⟨2, ![1, b]⟩ : Shape).Idx → α) (r : Fin a) (q : Fin b) :
    broadcastInDim ⟨2, ![a, b]⟩ (![0, 1] : Fin 2 → Fin 2) h x (ix2 r q) = x (ix2 (0 : Fin 1) q) := by
  refine broadcastInDim_apply _ h x (ix2 r q) (ix2 (0 : Fin 1) q) fun ax => ?_
  match ax with
  | ⟨0, _⟩ =>
    show 0 = if (1 : ℕ) = 1 then 0 else r.val
    rw [if_pos rfl]
  | ⟨1, _⟩ =>
    show q.val = if b = 1 then 0 else q.val
    split
    · have := q.isLt; omega
    · rfl

end Cert.Lib.BroadcastInDim
-- ==== Proof.KernelValue.lean ====
/-
  The idealized kernel's result array as ONE function of the arguments. The second region's output array, after
  its ten write-backs, is the second dense stage (entry by entry) of what the host operations between the regions
  leave in its input arrays; those are the second round of message passing over the first region's output array,
  which is the first dense stage of what the host operations before it leave: the first round of message passing
  over the two feature halves. Substituting each boundary's contents gives the network function `netOut` of the
  launch contents. The destination factor reaches the regions re-laid as a column by a reshape, which reads the
  same as the vector set as a column (`column_eq`).
-/
import proofs.«129936_j71811853189815_1_alg».proof.Proof.HostValue
import proofs.«129936_j71811853189815_1_alg».proof.Proof.NetworkSpec
import proofs.«129936_j71811853189815_1_alg».proof.Proof.KernelBlocks0
import proofs.«129936_j71811853189815_1_alg».proof.Proof.KernelBlocks1
import proofs.«129936_j71811853189815_1_alg».proof.Proof.LibKeepdims
import proofs.«129936_j71811853189815_1_alg».proof.Proof.LibBroadcastInDim

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The destination factor re-laid as a column (a reshape of the vector) is the vector set as a column: both read,
    at row `p`, the vector at `p`. -/
theorem column_eq (n : FVec Ideal S50000 .f32) : HostValue.column n = Cert.Stages.col n := by
  funext i
  obtain ⟨p, u, rfl⟩ : ∃ (p : Fin 50000) (u : Fin 1), i = ix2 p u := ⟨i 0, i 1, eq_ix2 i⟩
  exact (Cert.Lib.Keepdims.shapeCast_a_a1_apply n _ p u).trans (Cert.Lib.BroadcastInDim.vec_col_apply _ n p u).symm

/-- What the first region leaves in its output array: the first dense stage of the first round's aggregated
    features. -/
theorem region0_out (c : Dev nD) : W6 m ρ c (Proc.devRef .tc main_v34)
    = Cert.Dense.affineRelu
        (Cert.Stages.aggregate (Cert.Stages.features (m ((c : Thread nD τ).loc main_arg0)) (m ((c : Thread nD τ).loc main_arg1)))
          (Cert.Stages.norm (m ((c : Thread nD τ).loc main_arg6))) (m ((c : Thread nD τ).loc main_arg6)) (m ((c : Thread nD τ).loc main_arg7)))
        (Cert.Stages.col (Cert.Stages.norm (m ((c : Thread nD τ).loc main_arg7))))
        (m ((c : Thread nD τ).loc main_arg2)) (m ((c : Thread nD τ).loc main_arg3)) := by
  refine (W6_arr m ρ c 4).trans ?_
  rw [Blocks.final0 (V5 m ρ) c]
  show Cert.Dense.affineRelu (W5 m ρ c (Proc.devRef .tc main_v32)) (W5 m ρ c (Proc.devRef .tc main_v33))
      (W5 m ρ c (Proc.devRef .tc main_arg2)) (W5 m ρ c (Proc.devRef .tc main_arg3)) = _
  rw [HostValue.W5_v32, HostValue.W5_v33, HostValue.W5_arg2, HostValue.W5_arg3, column_eq]

/-- What the second region leaves in the result array: the whole network of the launch contents. -/
theorem result (c : Dev nD) : W8 m ρ c (Proc.devRef .tc main_v49)
    = Cert.Stages.netOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W8_arr m ρ c 4).trans ?_
  rw [Blocks.final1 (V7 m ρ) c]
  show Cert.Dense.affine (W7 m ρ c (Proc.devRef .tc main_v47)) (W7 m ρ c (Proc.devRef .tc main_v48))
      (W7 m ρ c (Proc.devRef .tc main_arg4)) (W7 m ρ c (Proc.devRef .tc main_arg5)) = _
  rw [HostValue.W7_v47, HostValue.W7_v48, HostValue.W7_arg4, HostValue.W7_arg5, region0_out, HostValue.W6_v12, HostValue.W6_v18,
    HostValue.W6_arg4, HostValue.W6_arg5, HostValue.W6_arg6, HostValue.W6_arg7, column_eq]
  rfl

end Cert.KernelIdeal.Value

end
-- ==== Proof.RefRun.lean ====
/-
  The reference's host program as the list of its 82 operations in order, and its run read back. The list is
  the program's operations in order: @main's 77 statements with each of the three calls replaced by the callee's
  operations over that call's buffers (the two selects against a converted, spread zero; the clamp against a spread zero).
  Every weakly fair execution terminates with each buffer at the fold of the operations' results over the launch
  contents; at the result buffer that fold is the two rounds of aggregate-then-dense of the arguments
  (Cert.Stages.refOut), and at the eight argument buffers it is what was there.
-/
import proofs.«129936_j71811853189815_1_alg».proof.Proof.HostStages
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- @main's 82 operations, in order. -/
abbrev ops : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg6 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    unary main_arg7 main_v5 (broadcastInDim S800000x1 ![0] bcast_S800000_S800000x1_0 : (⟨S800000, .i32⟩ : BufTy).Contents (Elt F) → (⟨S800000x1, .i32⟩ : BufTy).Contents (Elt F)),
    ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x00000000#32),
    unary main_cst_2 main_v7 (broadcastInDim S50000 ![] bcast_S_S50000 : (⟨S_, .f32⟩ : BufTy).Contents (Elt F) → (⟨S50000, .f32⟩ : BufTy).Contents (Elt F)),
    binary main_v3 main_v7 main_v8 (cmpf .ogt : (⟨S50000, .f32⟩ : BufTy).Contents (Elt F) → (⟨S50000, .f32⟩ : BufTy).Contents (Elt F) → (⟨S50000, .i1⟩ : BufTy).Contents (Elt F)),
    nullary main_cst_3 (constant S_ .f32 0x3F800000#32),
    unary main_cst_3 main_v9 (broadcastInDim S50000 ![] bcast_S_S50000 : (⟨S_, .f32⟩ : BufTy).Contents (Elt F) → (⟨S50000, .f32⟩ : BufTy).Contents (Elt F)),
    binary main_v3 main_v9 main_v10 (maximumf : (⟨S50000, .f32⟩ : BufTy).Contents (Elt F) → (⟨S50000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) main_call0.v0 id,
    TRef.unary main_call0.v0 main_call0.v1 (broadcastInDim S50000 ![] bcast_S_S50000),
    TRef.ternary (TRef.of (T := ⟨S50000, .i1⟩) main_v8) (TRef.of (T := ⟨S50000, .f32⟩) main_v11) main_call0.v1 main_call0.v2 select,
    nullary main_cst_5 (constant S_ .f32 0x00000000#32),
    unary main_cst_5 main_v13 (broadcastInDim S50000 ![] bcast_S_S50000 : (⟨S_, .f32⟩ : BufTy).Contents (Elt F) → (⟨S50000, .f32⟩ : BufTy).Contents (Elt F)),
    binary main_v6 main_v13 main_v14 (cmpf .ogt : (⟨S50000, .f32⟩ : BufTy).Contents (Elt F) → (⟨S50000, .f32⟩ : BufTy).Contents (Elt F) → (⟨S50000, .i1⟩ : BufTy).Contents (Elt F)),
    nullary main_cst_6 (constant S_ .f32 0x3F800000#32),
    unary main_cst_6 main_v15 (broadcastInDim S50000 ![] bcast_S_S50000 : (⟨S_, .f32⟩ : BufTy).Contents (Elt F) → (⟨S50000, .f32⟩ : BufTy).Contents (Elt F)),
    binary main_v6 main_v15 main_v16 (maximumf : (⟨S50000, .f32⟩ : BufTy).Contents (Elt F) → (⟨S50000, .f32⟩ : BufTy).Contents (Elt F) → (⟨S50000, .f32⟩ : BufTy).Contents (Elt F)),
    unary main_v16 main_v17 (Host.rsqrt : (⟨S50000, .f32⟩ : BufTy).Contents (Elt F) → (⟨S50000, .f32⟩ : BufTy).Contents (Elt F)),
    nullary main_cst_7 (constant S_ .f32 0x00000000#32),
    TRef.unary (TRef.of (T := ⟨S_, .f32⟩) main_cst_7) main_call1.v0 id,
    TRef.unary main_call1.v0 main_call1.v1 (broadcastInDim S50000 ![] bcast_S_S50000),
    TRef.ternary (TRef.of (T := ⟨S50000, .i1⟩) main_v14) (TRef.of (T := ⟨S50000, .f32⟩) main_v17) main_call1.v1 main_call1.v2 select,
    binary main_arg0 main_arg1 main_v19 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_v12 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v19 main_v21 main_v22 (mulf : (⟨S50000x128, .f32⟩ : BufTy).Contents (Elt F) → (⟨S50000x128, .f32⟩ : BufTy).Contents (Elt F) → (⟨S50000x128, .f32⟩ : BufTy).Contents (Elt F)),
    nullary main_c (constantI S_ 32 0#32),
    unary main_c main_v23 (broadcastInDim S800000 ![] bcast_S_S800000 : (⟨S_, .i32⟩ : BufTy).Contents (Elt F) → (⟨S800000, .i32⟩ : BufTy).Contents (Elt F)),
    binary main_arg6 main_v23 main_v24 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v25 (broadcastInDim S800000 ![] bcast_S_S800000 : (⟨S_, .i32⟩ : BufTy).Contents (Elt F) → (⟨S800000, .i32⟩ : BufTy).Contents (Elt F)),
    binary main_arg6 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_arg6 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v22 main_v28 main_v29 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_9 (constant S_ .f32 0x00000000#32),
    unary main_cst_9 main_v30 (broadcastInDim S50000x128 ![] bcast_S_S50000x128 : (⟨S_, .f32⟩ : BufTy).Contents (Elt F) → (⟨S50000x128, .f32⟩ : BufTy).Contents (Elt F)),
    unary main_arg7 main_v31 (broadcastInDim S800000x1 ![0] bcast_S800000_S800000x1_0 : (⟨S800000, .i32⟩ : BufTy).Contents (Elt F) → (⟨S800000x1, .i32⟩ : BufTy).Contents (Elt F)),
    ternary main_v30 main_v31 main_v29 main_v32 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v18 main_v33 (broadcastInDim S50000x1 ![0] bcast_S50000_S50000x1_0 : (⟨S50000, .f32⟩ : BufTy).Contents (Elt F) → (⟨S50000x1, .f32⟩ : BufTy).Contents (Elt F)),
    unary main_v33 main_v34 (broadcastInDim S50000x128 ![0, 1] bcast_S50000x1_S50000x128_0_1 : (⟨S50000x1, .f32⟩ : BufTy).Contents (Elt F) → (⟨S50000x128, .f32⟩ : BufTy).Contents (Elt F)),
    binary main_v32 main_v34 main_v35 (mulf : (⟨S50000x128, .f32⟩ : BufTy).Contents (Elt F) → (⟨S50000x128, .f32⟩ : BufTy).Contents (Elt F) → (⟨S50000x128, .f32⟩ : BufTy).Contents (Elt F)),
    binary main_v35 main_arg2 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v37 (broadcastInDim S1x128 ![1] bcast_S128_S1x128_1 : (⟨S128, .f32⟩ : BufTy).Contents (Elt F) → (⟨S1x128, .f32⟩ : BufTy).Contents (Elt F)),
    unary main_v37 main_v38 (broadcastInDim S50000x128 ![0, 1] bcast_S1x128_S50000x128_0_1 : (⟨S1x128, .f32⟩ : BufTy).Contents (Elt F) → (⟨S50000x128, .f32⟩ : BufTy).Contents (Elt F)),
    binary main_v36 main_v38 main_v39 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (TRef.of (T := ⟨S50000x128, .f32⟩) main_v39) main_call2.v0 main_call2.v1 maximumf,
    unary main_v12 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x128 ![0, 1] bcast_S50000x1_S50000x128_0_1 : (⟨S50000x1, .f32⟩ : BufTy).Contents (Elt F) → (⟨S50000x128, .f32⟩ : BufTy).Contents (Elt F)),
    binary main_v40 main_v42 main_v43 (mulf : (⟨S50000x128, .f32⟩ : BufTy).Contents (Elt F) → (⟨S50000x128, .f32⟩ : BufTy).Contents (Elt F) → (⟨S50000x128, .f32⟩ : BufTy).Contents (Elt F)),
    nullary main_c_10 (constantI S_ 32 0#32),
    unary main_c_10 main_v44 (broadcastInDim S800000 ![] bcast_S_S800000 : (⟨S_, .i32⟩ : BufTy).Contents (Elt F) → (⟨S800000, .i32⟩ : BufTy).Contents (Elt F)),
    binary main_arg6 main_v44 main_v45 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v46 (broadcastInDim S800000 ![] bcast_S_S800000 : (⟨S_, .i32⟩ : BufTy).Contents (Elt F) → (⟨S800000, .i32⟩ : BufTy).Contents (Elt F)),
    binary main_arg6 main_v46 main_v47 (addi : (⟨S800000, .i32⟩ : BufTy).Contents (Elt F) → (⟨S800000, .i32⟩ : BufTy).Contents (Elt F) → (⟨S800000, .i32⟩ : BufTy).Contents (Elt F)),
    ternary main_v45 main_v47 main_arg6 main_v48 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v48 main_v49 (broadcastInDim S800000x1 ![0] bcast_S800000_S800000x1_0 : (⟨S800000, .i32⟩ : BufTy).Contents (Elt F) → (⟨S800000x1, .i32⟩ : BufTy).Contents (Elt F)),
    binary main_v43 main_v49 main_v50 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v51 (broadcastInDim S50000x128 ![] bcast_S_S50000x128 : (⟨S_, .f32⟩ : BufTy).Contents (Elt F) → (⟨S50000x128, .f32⟩ : BufTy).Contents (Elt F)),
    unary main_arg7 main_v52 (broadcastInDim S800000x1 ![0] bcast_S800000_S800000x1_0 : (⟨S800000, .i32⟩ : BufTy).Contents (Elt F) → (⟨S800000x1, .i32⟩ : BufTy).Contents (Elt F)),
    ternary main_v51 main_v52 main_v50 main_v53 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v18 main_v54 (broadcastInDim S50000x1 ![0] bcast_S50000_S50000x1_0 : (⟨S50000, .f32⟩ : BufTy).Contents (Elt F) → (⟨S50000x1, .f32⟩ : BufTy).Contents (Elt F)),
    unary main_v54 main_v55 (broadcastInDim S50000x128 ![0, 1] bcast_S50000x1_S50000x128_0_1 : (⟨S50000x1, .f32⟩ : BufTy).Contents (Elt F) → (⟨S50000x128, .f32⟩ : BufTy).Contents (Elt F)),
    binary main_v53 main_v55 main_v56 (mulf : (⟨S50000x128, .f32⟩ : BufTy).Contents (Elt F) → (⟨S50000x128, .f32⟩ : BufTy).Contents (Elt F) → (⟨S50000x128, .f32⟩ : BufTy).Contents (Elt F)),
    binary main_v56 main_arg4 main_v57 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F)),
    unary main_arg5 main_v58 (broadcastInDim S1x32 ![1] bcast_S32_S1x32_1 : (⟨S32, .f32⟩ : BufTy).Contents (Elt F) → (⟨S1x32, .f32⟩ : BufTy).Contents (Elt F)),
    unary main_v58 main_v59 (broadcastInDim S50000x32 ![0, 1] bcast_S1x32_S50000x32_0_1 : (⟨S1x32, .f32⟩ : BufTy).Contents (Elt F) → (⟨S50000x32, .f32⟩ : BufTy).Contents (Elt F)),
    binary main_v57 main_v59 main_v60 (addf : (⟨S50000x32, .f32⟩ : BufTy).Contents (Elt F) → (⟨S50000x32, .f32⟩ : BufTy).Contents (Elt F) → (⟨S50000x32, .f32⟩ : BufTy).Contents (Elt F)) ]

set_option maxRecDepth 8192 in
set_option maxHeartbeats 4000000 in
/-- @main is that straight line: the two windows and the callees' bodies unfolded, sequencing reassociated. -/
theorem main_eq (c : Dev nD) : main (F := F) c = seq ops := by
  simp only [main, main_part0, main_part1, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., unary_bufs_sub .., nullary_bufs_sub .., unary_bufs_sub ..,
    unary_bufs_sub .., ternary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., unary_bufs_sub .., binary_bufs_sub .., binary_bufs_sub .., unary_bufs_sub ..,
    unary_bufs_sub .., binary_bufs_sub .., nullary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., unary_bufs_sub .., binary_bufs_sub ..,
    binary_bufs_sub .., unary_bufs_sub .., unary_bufs_sub .., binary_bufs_sub ..⟩

set_option maxRecDepth 8192 in
set_option maxHeartbeats 4000000 in
/-- On every device, for any float values, from any memory with zero counters: every weakly fair execution of
    @main terminates with the result at the network of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60) = Cert.Stages.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v60).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefRun

end
-- ==== Proof.RefLayers.lean ====
/-
  The reference's two dense stages, entry by entry, on the extended reals. Each stage scales row p of the
  aggregated features by the node's factor, multiplies by the weights and adds the bias:
      entry (p, q) = Σ_k (A (p, k) · n p) · W (k, q) + b q,
  the first stage then clamping below at zero. Read at (p, q): the product is the plain sum over the shared
  axis; the factor spread along the feature columns reads the factor's column at row p; the bias set as a row
  and spread over the rows reads b q; the zero spread over the array reads the zero word.
-/
import proofs.«129936_j71811853189815_1_alg».proof.Proof.HostStages
import proofs.«129936_j71811853189815_1_alg».proof.Proof.DenseSpec
import proofs.«129936_j71811853189815_1_alg».proof.Proof.LibPlainDot
import proofs.«129936_j71811853189815_1_alg».proof.Proof.LibBroadcastInDim

noncomputable section

open scoped BigOperators

namespace Cert.Stages

open Idealize.ShloMosaic Idealize.ShloMosaic.ValueIdx Cert.ReferenceIdeal Cert.ReferenceIdeal.Facts₀

/-- The first stage's product at (p, q): the sum over the 128 shared columns. -/
theorem dot128_apply (X : FVec Ideal S50000x128 .f32) (W : FVec Ideal S128x128 .f32) (p : Fin 50000) (q : Fin 128) :
    Host.dotGeneral (F := Ideal) dot_S50000x128_S128x128_S50000x128_1_0_0_1_n_n none X W (ix2 p q)
      = ∑ k : Fin 128, X (ix2 p k) * W (ix2 k q) :=
  Cert.Lib.PlainDot.dotGeneral_plain_apply (M := 50000) (K := 128) (N := 128) none .single X W p q

/-- The second stage's product at (p, q). -/
theorem dot32_apply (X : FVec Ideal S50000x128 .f32) (W : FVec Ideal S128x32 .f32) (p : Fin 50000) (q : Fin 32) :
    Host.dotGeneral (F := Ideal) dot_S50000x128_S128x32_S50000x32_1_0_0_1_n_n none X W (ix2 p q)
      = ∑ k : Fin 128, X (ix2 p k) * W (ix2 k q) :=
  Cert.Lib.PlainDot.dotGeneral_plain_apply (M := 50000) (K := 128) (N := 32) none .single X W p q

/-- The factor spread along the feature columns reads, at (p, k), the factor's column at row p. -/
theorem spread_apply (n : FVec Ideal S50000 .f32) (p : Fin 50000) (k : Fin 128) :
    spread (F := Ideal) n (ix2 p k)
      = broadcastInDim S50000x1 ![0] bcast_S50000_S50000x1_0 n (ix2 p (0 : Fin 1)) :=
  Cert.Lib.BroadcastInDim.col_lanes_apply (a := 50000) (b := 128) bcast_S50000x1_S50000x128_0_1 _ p k

/-- The 128-wide bias set as a row and spread over the rows reads b q. -/
theorem bias128_apply (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) :=
  (Cert.Lib.BroadcastInDim.row_rows_apply (a := 50000) (b := 128) bcast_S1x128_S50000x128_0_1 _ p q).trans
    (Cert.Lib.BroadcastInDim.vec_row_apply (b := 128) bcast_S128_S1x128_1 b (0 : Fin 1) q)

/-- The 32-wide bias set as a row and spread over the rows reads b q. -/
theorem bias32_apply (b : FVec Ideal S32 .f32) (p : Fin 50000) (q : Fin 32) :
    broadcastInDim S50000x32 ![0, 1] bcast_S1x32_S50000x32_0_1 (broadcastInDim S1x32 ![1] bcast_S32_S1x32_1 b) (ix2 p q)
      = b (ix1 q) :=
  (Cert.Lib.BroadcastInDim.row_rows_apply (a := 50000) (b := 32) bcast_S1x32_S50000x32_0_1 _ p q).trans
    (Cert.Lib.BroadcastInDim.vec_row_apply (b := 32) bcast_S32_S1x32_1 b (0 : Fin 1) q)

/-- The zero spread over the array reads the zero word everywhere. -/
theorem zeros_apply (j : S50000x128.Idx) :
    broadcastInDim S50000x128 ![] bcast_S_S50000x128 (constant (F := Ideal) S_ .f32 0x00000000#32) j
      = Ideal.ofBits .f32 0x00000000#32 :=
  Cert.Lib.BroadcastInDim.scalar_apply _ bcast_S_S50000x128 _ j

/-- The scaled product plus the bias at (p, q) is the dense entry. -/
theorem scaled_entry {C : ℕ} (agg : FVec Ideal S50000x128 .f32) (nd : FVec Ideal S50000 .f32)
    (W : FVec Ideal ⟨2, ![128, C]⟩ .f32) (b : FVec Ideal ⟨1, ![C]⟩ .f32) (p : Fin 50000) (q : Fin C) :
    (∑ k : Fin 128, mulf agg (spread (F := Ideal) nd) (ix2 p k) * W (ix2 k q)) + b (ix1 q)
      = Cert.Dense.entry agg (broadcastInDim S50000x1 ![0] bcast_S50000_S50000x1_0 nd) W b p q := by
  unfold Cert.Dense.entry
  refine congrArg (· + b (ix1 q)) (Finset.sum_congr rfl fun k _ => ?_)
  exact congrArg (· * W (ix2 k q)) (congrArg (agg (ix2 p k) * ·) (spread_apply nd p k))

/-- The reference's first dense stage is the clamped dense layer of the aggregated features and the factor column. -/
theorem refLayer1_eq (agg : FVec Ideal S50000x128 .f32) (nd : FVec Ideal S50000 .f32)
    (W : FVec Ideal S128x128 .f32) (b : FVec Ideal S128 .f32) :
    refLayer1 (F := Ideal) agg nd W b
      = Cert.Dense.affineRelu agg (broadcastInDim S50000x1 ![0] bcast_S50000_S50000x1_0 nd) W b := by
  funext i
  obtain ⟨p, q, rfl⟩ : ∃ (p : Fin 50000) (q : Fin 128), i = ix2 p q := ⟨i 0, i 1, eq_ix2 i⟩
  refine Eq.trans ?_ (Cert.Dense.affineRelu_apply agg _ W b p q).symm
  refine congrArg₂ max ?_ (zeros_apply (ix2 p q))
  exact (congrArg₂ (· + ·) (dot128_apply _ W p q) (bias128_apply b p q)).trans (scaled_entry agg nd W b p q)

/-- The reference's second dense stage is the dense layer of the aggregated features and the factor column. -/
theorem refLayer2_eq (agg : FVec Ideal S50000x128 .f32) (nd : FVec Ideal S50000 .f32)
    (W : FVec Ideal S128x32 .f32) (b : FVec Ideal S32 .f32) :
    refLayer2 (F := Ideal) agg nd W b
      = Cert.Dense.affine agg (broadcastInDim S50000x1 ![0] bcast_S50000_S50000x1_0 nd) W b := by
  funext i
  obtain ⟨p, q, rfl⟩ : ∃ (p : Fin 50000) (q : Fin 32), i = ix2 p q := ⟨i 0, i 1, eq_ix2 i⟩
  refine Eq.trans ?_ (Cert.Dense.affine_apply agg _ W b p q).symm
  exact (congrArg₂ (· + ·) (dot32_apply _ W p q) (bias32_apply b p q)).trans (scaled_entry agg nd W b p q)

end Cert.Stages

end
-- ==== Proof.RefValue.lean ====
/-
  The reference computes the network function: its two dense stages, read entry by entry, are the stages of
  `netOut`, and the rounds of message passing are the same terms on both sides.
-/
import proofs.«129936_j71811853189815_1_alg».proof.Proof.NetworkSpec
import proofs.«129936_j71811853189815_1_alg».proof.Proof.RefLayers

noncomputable section

namespace Cert.Stages

open Idealize.ShloMosaic Cert.ReferenceIdeal

theorem refOut_eq_netOut (a0 a1 : FVec Ideal S50000x64 .f32) (W1 : FVec Ideal S128x128 .f32) (b1 : FVec Ideal S128 .f32)
    (W2 : FVec Ideal S128x32 .f32) (b2 : FVec Ideal S32 .f32) (src dst : IVec S800000 32) :
    refOut (F := Ideal) a0 a1 W1 b1 W2 b2 src dst = netOut a0 a1 W1 b1 W2 b2 src dst := by
  unfold refOut netOut
  rw [refLayer2_eq, refLayer1_eq]

end Cert.Stages

end
-- ==== Proof.lean ====
/-
  The certificate of a two-layer graph convolution: a kernel that computes each layer's dense stage
  ((agg ⊙ norm_dst) · W + b, the first layer clamped below at zero) in a grid of ten blocks of 5000 rows, with the
  message passing around it (degree factors, a gather per edge, a sum per destination node) left to host operations,
  against a reference that computes everything with host operations.
  On the extended reals the two programs compute one function of the arguments (`Cert.Stages.netOut`): the message
  passing is the same chain of host operations on both sides, and a dense stage of a block of rows is that block of
  the dense stage of the whole array, entry by entry: Σ_k (agg (p, k) · n p) · W (k, q) + b q, the kernel's product
  into a zero accumulator and the reference's `dot_general` both being that sum, a change of float format the
  identity. No law that needs finiteness is used, so the precondition is never opened.
  The three frames: the two kernels' are the generated frame certificates; the reference's is its run with the
  result dropped. The idealization rewrote nothing, so `preserves` is trivial.
-/
import proofs.«129936_j71811853189815_1_alg».proof.Defs
import proofs.«129936_j71811853189815_1_alg».proof.Proof.Gen.Kernel
import proofs.«129936_j71811853189815_1_alg».proof.Proof.Gen.Kernel.Skeleton
import proofs.«129936_j71811853189815_1_alg».proof.Proof.Gen.Kernel.Launch
import proofs.«129936_j71811853189815_1_alg».proof.Proof.Gen.Kernel.Points
import proofs.«129936_j71811853189815_1_alg».proof.Proof.Gen.Kernel.Frame
import proofs.«129936_j71811853189815_1_alg».proof.Proof.Gen.KernelIdeal
import proofs.«129936_j71811853189815_1_alg».proof.Proof.Gen.KernelIdeal.Skeleton
import proofs.«129936_j71811853189815_1_alg».proof.Proof.Gen.KernelIdeal.Launch
import proofs.«129936_j71811853189815_1_alg».proof.Proof.Gen.KernelIdeal.Points
import proofs.«129936_j71811853189815_1_alg».proof.Proof.Gen.KernelIdeal.Frame
import proofs.«129936_j71811853189815_1_alg».proof.Proof.Gen.ReferenceIdeal
import proofs.«129936_j71811853189815_1_alg».proof.Proof.Gen.Pre_finite_inputs
import proofs.«129936_j71811853189815_1_alg».proof.Proof.KernelRun
import proofs.«129936_j71811853189815_1_alg».proof.Proof.KernelValue
import proofs.«129936_j71811853189815_1_alg».proof.Proof.RefRun
import proofs.«129936_j71811853189815_1_alg».proof.Proof.RefValue
import Idealize.ShloMosaic.Adequacy
import Idealize.ShloMosaic.Init

set_option maxRecDepth 16384

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- On the extended reals both programs end with the result array at the network function `netOut` of the arguments:
    the kernel by its run, its two regions read as whole arrays and its host operations read as functions of the
    launch contents; the reference by its run and its two dense stages read entry by entry. The arguments agree, so
    the two results are equal, index by index. -/
theorem algebraic : Cert.algebraic_KernelIdeal_ReferenceIdeal := by
  intro m ρ m' ρ' _ hagree
  refine ⟨fun c => Cert.Stages.netOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Value.result m ρ c), (h c).2⟩) (Cert.KernelIdeal.ResultRun.run m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7⟩ := hagree c
    rw [e0, e1, e2, e3, e4, e5, e6, e7]
    exact Cert.Stages.refOut_eq_netOut _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
